-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S1600000 32) (main_arg2 : IVec S1600000 32) (main_arg3 : FVec F S1600000 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 29
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S1600000x1, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S50000x128, .f32⟩
  | .hbm, ⟨20, _⟩ => ⟨S1600000x1, .i32⟩
  | .hbm, ⟨21, _⟩ => ⟨S50000x128, .f32⟩
  | .hbm, ⟨22, _⟩ => ⟨S_, .f32⟩
  | .hbm, ⟨23, _⟩ => ⟨S50000, .f32⟩
  | .hbm, ⟨24, _⟩ => ⟨S1600000x1, .i32⟩
  | .hbm, ⟨25, _⟩ => ⟨S50000, .f32⟩
  | .hbm, ⟨26, _⟩ => ⟨S50000x1, .f32⟩
  | .hbm, ⟨27, _⟩ => ⟨S1x128, .f32⟩
  | .hbm, ⟨28, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S1600000x1, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S50000x128, .f32⟩
  | .hbm, ⟨20, _⟩ => ⟨S1600000x1, .i32⟩
  | .hbm, ⟨21, _⟩ => ⟨S50000x128, .f32⟩
  | .hbm, ⟨22, _⟩ => ⟨S_, .f32⟩
  | .hbm, ⟨23, _⟩ => ⟨S50000, .f32⟩
  | .hbm, ⟨24, _⟩ => ⟨S1600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_cst : Ref sig .tc := ⟨.hbm, 36, rfl⟩
abbrev main_call0_v0 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibColumn.lean ====
/-
  Two layout facts about a COLUMN of width one, for any lengths: a vector of length `a` recast as an `[a, 1]` column
  reads, at `(i, u)`, the vector at `i`; and an `[a, 1]` column broadcast along a second axis of length `b` reads,
  at `(i, j)`, the column at `(i, 0)`. Both are the library's read-at-an-index lemmas with the coordinate arithmetic
  discharged. No program is imported.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to an `[a, 1]` column reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`: the unit axis is read at
    zero, the other at the same coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h (ix2 i j) (ix2 i (0 : Fin 1)) fun ax => by
    match ax with
    | ⟨0, _⟩ =>
      show i.val = if a = 1 then 0 else i.val
      by_cases ha : a = 1
      · rw [if_pos ha]; have := i.isLt; omega
      · rw [if_neg ha]
    | ⟨1, _⟩ => show 0 = if (1 : Nat) = 1 then 0 else j.val; rw [if_pos rfl]

end Cert.LibColumn
-- ==== Proof.DenseSpec.lean ====
/-
  The graph-convolution layer's dense stage as ONE function of four arrays over the extended reals. With
  `num` a [50000, 128] array of weighted feature sums, `den` the 50000 weight sums, `W` a [128, 128] matrix and
  `b` a bias of length 128, the entry at row `r` and column `u` is

      max ( (Σ_k (num[r, k] / max(den[r], ε)) · W[k, u]) + b[u], 0 ),

  `ε` the single-precision word nearest 1e-12 and `/` the extended reals' total quotient. Two spellings of the same
  function are given: over the weight sums held as a [50000, 1] column and the bias as a [1, 128] row (how a blocked
  evaluation is handed them), and over plain vectors (how the textbook formula reads them); a column made from a
  vector by a cast, and a row made from a vector by a cast, make the two agree. No program is imported.
-/
import Idealize.ShloMosaic.PureOps.Ideal
import Idealize.ShloMosaic.Lib.ValueIdx
import Idealize.ShloMosaic.Lib.ValueLayout
import proofs.«107392_j22204980920810_1_alg».proof.Proof.LibColumn

noncomputable section

namespace Cert.DenseSpec

open Idealize.ShloMosaic Idealize.ShloMosaic.ValueIdx

/-- The floor under a row's weight sum: the single-precision word nearest 1e-12, as an extended real. -/
abbrev floorW : EReal := Ideal.ofBits .f32 0x2B8CBCCC#32

/-- The rectifier's threshold: the zero word, as an extended real. -/
abbrev zeroW : EReal := Ideal.ofBits .f32 0x00000000#32

/-- Row `r`, column `u` of the layer, the weight sums held as a column and the bias as a row: each feature sum of
    the row divided by the row's floored weight sum, contracted against column `u` of `W`, plus the bias, rectified. -/
def entry (num : FVec Ideal ⟨2, ![50000, 128]⟩ .f32) (denCol : FVec Ideal ⟨2, ![50000, 1]⟩ .f32)
    (W : FVec Ideal ⟨2, ![128, 128]⟩ .f32) (bRow : FVec Ideal ⟨2, ![1, 128]⟩ .f32) (r : Fin 50000) (u : Fin 128) : EReal :=
  max ((∑ k : Fin 128, Ideal.div (num (ix2 r k)) (max (denCol (ix2 r (0 : Fin 1))) floorW) * W (ix2 k u))
    + bRow (ix2 (0 : Fin 1) u)) zeroW

/-- The whole [50000, 128] result, index by index. -/
def layerCR (num : FVec Ideal ⟨2, ![50000, 128]⟩ .f32) (denCol : FVec Ideal ⟨2, ![50000, 1]⟩ .f32)
    (W : FVec Ideal ⟨2, ![128, 128]⟩ .f32) (bRow : FVec Ideal ⟨2, ![1, 128]⟩ .f32) : FVec Ideal ⟨2, ![50000, 128]⟩ .f32 :=
  fun i => entry num denCol W bRow (i 0) (i 1)

theorem layerCR_apply (num : FVec Ideal ⟨2, ![50000, 128]⟩ .f32) (denCol : FVec Ideal ⟨2, ![50000, 1]⟩ .f32)
    (W : FVec Ideal ⟨2, ![128, 128]⟩ .f32) (bRow : FVec Ideal ⟨2, ![1, 128]⟩ .f32) (r : Fin 50000) (u : Fin 128) :
    layerCR num denCol W bRow (ix2 r u) = entry num denCol W bRow r u := rfl

/-- The same layer over the weight sums and the bias as plain vectors. -/
def layer (num : FVec Ideal ⟨2, ![50000, 128]⟩ .f32) (den : FVec Ideal ⟨1, ![50000]⟩ .f32)
    (W : FVec Ideal ⟨2, ![128, 128]⟩ .f32) (b : FVec Ideal ⟨1, ![128]⟩ .f32) : FVec Ideal ⟨2, ![50000, 128]⟩ .f32 :=
  fun i => max ((∑ k : Fin 128, Ideal.div (num (ix2 (i 0) k)) (max (den (ix1 (i 0))) floorW) * W (ix2 k (i 1)))
    + b (ix1 (i 1))) zeroW

theorem layer_apply (num : FVec Ideal ⟨2, ![50000, 128]⟩ .f32) (den : FVec Ideal ⟨1, ![50000]⟩ .f32)
    (W : FVec Ideal ⟨2, ![128, 128]⟩ .f32) (b : FVec Ideal ⟨1, ![128]⟩ .f32) (r : Fin 50000) (u : Fin 128) :
    layer num den W b (ix2 r u)
      = max ((∑ k : Fin 128, Ideal.div (num (ix2 r k)) (max (den (ix1 r)) floorW) * W (ix2 k u)) + b (ix1 u)) zeroW := rfl

/-- A vector of weight sums recast as a column and a bias recast as a row feed the column/row spelling exactly what
    the vectors feed the plain one: the cast column at `(r, 0)` is the vector at `r`, the cast row at `(0, u)` the
    vector at `u`. -/
theorem layerCR_of_casts (num : FVec Ideal ⟨2, ![50000, 128]⟩ .f32) (den : FVec Ideal ⟨1, ![50000]⟩ .f32)
    (W : FVec Ideal ⟨2, ![128, 128]⟩ .f32) (b : FVec Ideal ⟨1, ![128]⟩ .f32)
    (hc : (⟨1, ![50000]⟩ : Shape).ShapeCasts ⟨2, ![50000, 1]⟩) (hr : (⟨1, ![128]⟩ : Shape).ShapeCasts ⟨2, ![1, 128]⟩) :
    layerCR num (shapeCast ⟨2, ![50000, 1]⟩ den hc) W (shapeCast ⟨2, ![1, 128]⟩ b hr) = layer num den W b := by
  funext i
  obtain ⟨r, u, rfl⟩ : ∃ (r : Fin 50000) (u : Fin 128), i = ix2 r u := ⟨i 0, i 1, eq_ix2 i⟩
  show max ((∑ k : Fin 128, Ideal.div (num (ix2 r k)) (max (shapeCast ⟨2, ![50000, 1]⟩ den hc (ix2 r (0 : Fin 1))) floorW) * W (ix2 k u))
      + shapeCast ⟨2, ![1, 128]⟩ b hr (ix2 (0 : Fin 1) u)) zeroW
    = max ((∑ k : Fin 128, Ideal.div (num (ix2 r k)) (max (den (ix1 r)) floorW) * W (ix2 k u)) + b (ix1 u)) zeroW
  rw [Cert.LibColumn.shapeCast_a_a1_apply den hc r (0 : Fin 1), shapeCast_a_1a_apply b hr (0 : Fin 1) u]

end Cert.DenseSpec

end
-- ==== Proof.RefLayer.lean ====
/-
  The reference computes the layer of DenseSpec: its last stage, read index by index through the generated
  read-at-an-index lemmas, is `layer` of its two segment sums (the weighted feature sums and the weight sums, both
  left as the opaque scatter-adds they are), the matrix and the bias. Only the stages AFTER the segment sums are
  opened: the floor under the weight sums, the two broadcasts that stretch them along the feature axis, the
  quotient, the contraction over the 128 features, the stretched bias and the rectifier.
-/
import proofs.«107392_j22204980920810_1_alg».proof.Proof.Gen.ReferenceIdeal.Read
import proofs.«107392_j22204980920810_1_alg».proof.Proof.DenseSpec

noncomputable section

namespace Cert.ReferenceIdeal.RefValue

open Cert.ReferenceIdeal Cert.ReferenceIdeal.Gen Cert.ReferenceIdeal.Read Idealize.ShloMosaic Idealize.ShloMosaic.ValueIdx

/-- The contraction reads the left operand at the row, feature `k`. -/
theorem lidx_eq (r : Fin 50000) (u k : Fin 128) : lidx_main_v21 (ix2 r u) k = ix2 r k :=
  funext fun a => by match a with | ⟨0, _⟩ => rfl | ⟨1, _⟩ => rfl

/-- and the matrix at feature `k`, the column. -/
theorem ridx_eq (r : Fin 50000) (u k : Fin 128) : ridx_main_v21 (ix2 r u) k = ix2 k u :=
  funext fun a => by match a with | ⟨0, _⟩ => rfl | ⟨1, _⟩ => rfl

/-- The two broadcasts of the floored weight sums, composed, read the vector at the row. -/
theorem den_idx_eq (r : Fin 50000) (k : Fin 128) : idx_main_v18 (idx_main_v19 (ix2 r k)) = ix1 r :=
  funext fun a => by match a with | ⟨0, _⟩ => rfl

/-- The two broadcasts of the bias, composed, read the vector at the column. -/
theorem bias_idx_eq (r : Fin 50000) (u : Fin 128) : idx_main_v22 (idx_main_v23 (ix2 r u)) = ix1 u :=
  funext fun a => by match a with | ⟨0, _⟩ => rfl

/-- The quotient stage at row `r`, feature `k`: the weighted feature sum there over the row's floored weight sum (the
    two broadcasts only re-index, the floor is a pointwise maximum with the broadcast constant). -/
theorem quot_apply (x0 : (⟨S50000x128, .f32⟩ : BufTy).Contents (Elt Ideal)) (x1 x2 : (⟨S1600000, .i32⟩ : BufTy).Contents (Elt Ideal))
    (x3 : (⟨S1600000, .f32⟩ : BufTy).Contents (Elt Ideal)) (r : Fin 50000) (k : Fin 128) :
    val_main_v20 (F := Ideal) x0 x1 x2 x3 (ix2 r k)
      = Ideal.div (val_main_v12 (F := Ideal) x0 x1 x2 x3 (ix2 r k))
          (max (val_main_v15 (F := Ideal) x1 x3 (ix1 r)) Cert.DenseSpec.floorW) := by
  rw [val_main_v20_apply, val_main_v19_apply, val_main_v18_apply, val_main_v17_apply, val_main_v16_apply,
    val_main_cst_2_apply, den_idx_eq]
  rfl

/-- The reference's result is the layer of its segment sums, the matrix and the bias. -/
theorem result_eq_layer (x0 : (⟨S50000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) :
    val_main_v25 (F := Ideal) x0 x1 x2 x3 x4 x5
      = Cert.DenseSpec.layer (val_main_v12 (F := Ideal) x0 x1 x2 x3) (val_main_v15 (F := Ideal) x1 x3) x4 x5 := by
  funext i
  obtain ⟨r, u, rfl⟩ : ∃ (r : Fin 50000) (u : Fin 128), i = ix2 r u := ⟨i 0, i 1, eq_ix2 i⟩
  rw [Cert.DenseSpec.layer_apply, val_main_v25_apply, val_main_v24_apply, val_main_v21_apply, val_main_v23_apply,
    val_main_v22_apply, val_main_call0_v0_apply, val_main_call0_cst_apply, bias_idx_eq]
  have hsum : (∑ k : Fin 128, val_main_v20 (F := Ideal) x0 x1 x2 x3 (lidx_main_v21 (ix2 r u) k) * x4 (ridx_main_v21 (ix2 r u) k))
      = ∑ k : Fin 128, Ideal.div (val_main_v12 (F := Ideal) x0 x1 x2 x3 (ix2 r k))
          (max (val_main_v15 (F := Ideal) x1 x3 (ix1 r)) Cert.DenseSpec.floorW) * x4 (ix2 k u) :=
    Finset.sum_congr rfl fun k _ => by rw [lidx_eq, ridx_eq, quot_apply]
  rw [hsum]
  rfl

end Cert.ReferenceIdeal.RefValue

end
-- ==== Proof.KernelPayload.lean ====
/-
  What the kernel's body computes for ONE block, read at one entry. From a [2000, 128] block of weighted feature
  sums, the block's [2000, 1] column of weight sums, the whole [128, 128] matrix and the [1, 128] bias row, the
  entry at local row `p` and column `q` is

      max ( (Σ_k (num[p, k] / max(den[p, 0], ε)) · W[k, q]) + b[0, q], 0 ):

  the floor and the quotient are pointwise (the column stretched along the features reads `(p, 0)`), the two
  roundings to half precision are the identity on extended reals, the matrix product into a zero accumulator is the
  plain sum over the contracted axis, the bias row stretched down the rows reads `(0, q)`, and the rectifier is a
  pointwise maximum with zero.
-/
import proofs.«107392_j22204980920810_1_alg».proof.Proof.Gen.KernelIdeal.Skeleton
import proofs.«107392_j22204980920810_1_alg».proof.Proof.DenseSpec
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx Cert.DenseSpec

/-- The contraction's left index keeps the output's row, -/
theorem lhs_row (i : S2000x128.Idx) (z : dot_S2000x128_S128x128_S2000x128_1_0_0_1_n_n.contr.Idx) :
    (dot_S2000x128_S128x128_S2000x128_1_0_0_1_n_n.lhsIdx i z 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- and takes the contracted coordinate as its column; -/
theorem lhs_col (i : S2000x128.Idx) (z : dot_S2000x128_S128x128_S2000x128_1_0_0_1_n_n.contr.Idx) :
    (dot_S2000x128_S128x128_S2000x128_1_0_0_1_n_n.lhsIdx i z 1).val = (z ⟨0, by decide⟩).val :=
  dot_S2000x128_S128x128_S2000x128_1_0_0_1_n_n.lhsIdx_val_of_single rfl i z

/-- the right index takes the contracted coordinate as its row, -/
theorem rhs_row (i : S2000x128.Idx) (z : dot_S2000x128_S128x128_S2000x128_1_0_0_1_n_n.contr.Idx) :
    (dot_S2000x128_S128x128_S2000x128_1_0_0_1_n_n.rhsIdx i z 0).val = (z ⟨0, by decide⟩).val :=
  dot_S2000x128_S128x128_S2000x128_1_0_0_1_n_n.rhsIdx_val_of_single rfl i z

/-- and keeps the output's column. -/
theorem rhs_col (i : S2000x128.Idx) (z : dot_S2000x128_S128x128_S2000x128_1_0_0_1_n_n.contr.Idx) :
    (dot_S2000x128_S128x128_S2000x128_1_0_0_1_n_n.rhsIdx i z 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The block's matrix product into the zero accumulator, at `(p, q)`: the sum over the 128 features of the left
    operand at `(p, k)` times the right at `(k, q)`. -/
theorem matmul_entry (lhs : FVec Ideal S2000x128 .bf16) (rhs : FVec Ideal S128x128 .bf16) (p : Fin 2000) (q : Fin 128) :
    matmul dot_S2000x128_S128x128_S2000x128_1_0_0_1_n_n none lhs rhs (constant (F := Ideal) S2000x128 .f32 0x00000000#32) (ix2 p q)
      = ∑ k : Fin 128, lhs (ix2 p k) * rhs (ix2 k q) := by
  refine (Ideal.matmul_constant_zero_apply dot_S2000x128_S128x128_S2000x128_1_0_0_1_n_n none lhs rhs (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The column of floored weight sums stretched along the features reads, at `(p, k)`, the column at `(p, 0)`. -/
theorem col_stretch (v : FVec Ideal S2000x1 .f32) (p : Fin 2000) (k : Fin 128) :
    broadcastTo S2000x128 v broadcasts_S2000x1_S2000x128 (ix2 p k) = v (ix2 p (0 : Fin 1)) :=
  Cert.LibColumn.broadcastTo_a1_ab_apply v broadcasts_S2000x1_S2000x128 p k

/-- The bias row stretched down the rows reads, at `(p, q)`, the row at `(0, q)`. -/
theorem row_stretch (v : FVec Ideal S1x128 .f32) (p : Fin 2000) (q : Fin 128) :
    broadcastTo S2000x128 v broadcasts_S1x128_S2000x128 (ix2 p q) = v (ix2 (0 : Fin 1) q) :=
  broadcastTo_1b_ab_apply v broadcasts_S1x128_S2000x128 p q

/-- The body's stored value at local entry `(p, q)`, from the four loaded blocks. -/
theorem pay_apply (v0 : Vec Ideal S2000x1 .f32) (v4 : Vec Ideal S2000x128 .f32) (v9 : Vec Ideal S128x128 .f32)
    (v12 : Vec Ideal S1x128 .f32) (p : Fin 2000) (q : Fin 128) :
    k0_pay1 (F := Ideal) v0 v4 v9 v12 (ix2 p q)
      = max ((∑ k : Fin 128, Ideal.div (v4 (ix2 p k)) (max (v0 (ix2 p (0 : Fin 1))) floorW) * v9 (ix2 k q))
          + v12 (ix2 (0 : Fin 1) q)) zeroW := by
  unfold k0_pay1
  rw [maximumf_apply, addf_apply, broadcast_apply, matmul_entry, row_stretch, shapeCast_self]
  simp only [truncf_apply, divf_apply, col_stretch, maximumf_apply, broadcast_apply, shapeCast_self]
  rfl

end Cert.KernelIdeal.BodyValue

end
-- ==== Proof.KernelBlocks.lean ====
/-
  From blocks to the whole array. The kernel's grid has 25 points; point `t` reads rows `2000·t … 2000·t + 1999` of the
  weighted feature sums and of the column of weight sums, the whole matrix and the whole bias row, and writes rows
  `2000·t … 2000·t + 1999` of the result. An entry of such a block depends only on its own row of the two row-blocked
  inputs, so the block point `t` writes is block `t` of the layer of DenseSpec evaluated on the WHOLE arrays; the 25
  blocks tile the 50000 rows (row `r` lies in block `r / 2000`), so after the run the result array is that layer.
-/
import proofs.«107392_j22204980920810_1_alg».proof.Proof.Gen.KernelIdeal.Value
import proofs.«107392_j22204980920810_1_alg».proof.Proof.KernelPayload

noncomputable section

namespace Cert.KernelIdeal.ArrayValue

open Cert.KernelIdeal Cert.KernelIdeal.Gen Cert.KernelIdeal.Value Cert.KernelIdeal.BodyValue
open Idealize.ShloMosaic Idealize.ShloMosaic.TcCoe Idealize.ShloMosaic.ValueIdx Idealize.SL.Sem Cert.DenseSpec
open Idealize.ShloMosaic.Pipeline (Dat)

variable (m : (ℓ : Loc nD τ sig) → Buf (Elt Ideal) ℓ) (ρ : Dev nD → PrngReg)

theorem off_zero : (![0, 0] : Fin 2 → Nat) = fun _ => 0 := funext fun a => by fin_cases a <;> rfl

/-- The block index of every window at every grid point: the two row-blocked inputs and the output sit at block row
    `t`, block column 0; the matrix and the bias row are always their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 25 := by
  have h := t.isLt
  have hN : cfg0.N = 25 := N_0
  omega

/-- The array row that local row `p` of point `t`'s blocks is. -/
def rowOf (t : Fin cfg0.N) (p : Fin 2000) : Fin 50000 :=
  ⟨t.val * 2000 + p.val, by have := point_lt t; have := p.isLt; omega⟩

/-! ## Each window's block, read where an array says

  Stated for ARBITRARY arrays `A` of the windows' shapes: a block is a re-indexing of its array, whatever the array
  holds. -/

theorem read_num (A : S50000x128.Idx → EReal) (t : Fin cfg0.N) (p : Fin 2000) (k : Fin 128) :
    ((cfg0.win 0).blk t).view.read (Elt Ideal) A (ix2 p k) = A (ix2 (rowOf t p) k) := by
  show A (((cfg0.win 0).blk t).view.emb (ix2 p k)) = A (ix2 (rowOf t p) k)
  refine congrArg A ?_
  obtain ⟨e0, e1, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

theorem read_den (A : S50000x1.Idx → EReal) (t : Fin cfg0.N) (p : Fin 2000) :
    ((cfg0.win 1).blk t).view.read (Elt Ideal) A (ix2 p (0 : Fin 1)) = A (ix2 (rowOf t p) (0 : Fin 1)) := by
  show A (((cfg0.win 1).blk t).view.emb (ix2 p (0 : Fin 1))) = A (ix2 (rowOf t p) (0 : Fin 1))
  refine congrArg A ?_
  obtain ⟨-, -, e0, e1, -⟩ := idx_facts t
  funext a; apply Fin.ext
  match a with
  | ⟨0, _⟩ => show win0_1.index t (0 : Fin 2) * 2000 + 1 * p.val = t.val * 2000 + p.val; omega
  | ⟨1, _⟩ => show win0_1.index t (1 : Fin 2) * 1 + 1 * 0 = 0; omega

theorem read_mat (A : S128x128.Idx → EReal) (t : Fin cfg0.N) (k q : Fin 128) :
    ((cfg0.win 2).blk t).view.read (Elt Ideal) A (ix2 k q) = A (ix2 k q) := by
  show A (((cfg0.win 2).blk t).view.emb (ix2 k q)) = A (ix2 k q)
  refine congrArg A ?_
  obtain ⟨-, -, -, -, e0, e1, -⟩ := idx_facts t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

theorem read_bias (A : S1x128.Idx → EReal) (t : Fin cfg0.N) (q : Fin 128) :
    ((cfg0.win 3).blk t).view.read (Elt Ideal) A (ix2 (0 : Fin 1) q) = A (ix2 (0 : Fin 1) q) := by
  show A (((cfg0.win 3).blk t).view.emb (ix2 (0 : Fin 1) q)) = A (ix2 (0 : Fin 1) q)
  refine congrArg A ?_
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 128 + 1 * q.val = q.val; omega

/-- Local entry `(p, q)` of the output's block at point `t` is array entry `(rowOf t p, q)`. -/
theorem emb_out (t : Fin cfg0.N) (p : Fin 2000) (q : Fin 128) :
    ((cfg0.win 4).blk t).view.emb (ix2 p q) = (ix2 (rowOf t p) q : S50000x128.Idx) := by
  obtain ⟨-, -, -, -, -, -, -, -, e0, e1⟩ := idx_facts t
  funext a; apply Fin.ext
  match a with
  | ⟨0, _⟩ => show win0_4.index t (0 : Fin 2) * 2000 + 1 * p.val = t.val * 2000 + p.val; omega
  | ⟨1, _⟩ => show win0_4.index t (1 : Fin 2) * 128 + 1 * q.val = q.val; omega

/-! ## What a point writes back, and the whole array -/

/-- The body's result on the blocks of ANY four arrays at point `t`, cut to the output's block, is block `t` of the layer
    of those arrays: an entry of the block reads only its own row of the two row-blocked arrays. -/
theorem block_eq (A0 : S50000x128.Idx → EReal) (A1 : S50000x1.Idx → EReal) (A2 : S128x128.Idx → EReal)
    (A3 : S1x128.Idx → EReal) (t : Fin cfg0.N) :
    (cfg0.win 4).cut (grid0.coords t)
        (out0_4 (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (layerCR A0 A1 A2 A3) := by
  unfold out0_4
  rw [View.canon_unit_zero off_zero]
  simp only [View.ld_unit_zero (S := S2000x1) off_zero, View.ld_unit_zero (S := S2000x128) off_zero,
    View.ld_unit_zero (S := S128x128) off_zero, View.ld_unit_zero (S := S1x128) off_zero]
  funext j
  obtain ⟨p, q, rfl⟩ : ∃ (p : Fin 2000) (q : Fin 128), j = ix2 p q := ⟨j 0, j 1, eq_ix2 j⟩
  show k0_pay1 (((cfg0.win 1).blk t).view.read (Elt Ideal) A1) (((cfg0.win 0).blk t).view.read (Elt Ideal) A0)
      (((cfg0.win 2).blk t).view.read (Elt Ideal) A2) (((cfg0.win 3).blk t).view.read (Elt Ideal) A3) (ix2 p q)
    = layerCR A0 A1 A2 A3 (((cfg0.win 4).blk t).view.emb (ix2 p q))
  rw [emb_out t p q, layerCR_apply]
  refine (pay_apply (((cfg0.win 1).blk t).view.read (Elt Ideal) A1) (((cfg0.win 0).blk t).view.read (Elt Ideal) A0)
    (((cfg0.win 2).blk t).view.read (Elt Ideal) A2) (((cfg0.win 3).blk t).view.read (Elt Ideal) A3) p q).trans ?_
  unfold entry
  refine congrArg (fun s => max s zeroW) ?_
  refine congrArg₂ (· + ·) (Finset.sum_congr rfl fun k _ => ?_) (read_bias A3 t q)
  exact congrArg₂ (· * ·)
    (congrArg₂ Ideal.div (read_num A0 t p k) (congrArg (fun d => max d floorW) (read_den A1 t p)))
    (read_mat A2 t k q)

/-- WHAT POINT `t` WRITES BACK is block `t` of the layer of the four arrays as the region finds them (each window's
    block at a point being, by definition, the read of its array through the block). -/
theorem flushed_eq (c : Dev nD) (t : Fin cfg0.N) :
    (dats m 0 c).flushed 4 t = ((cfg0.win 4).blk t).view.read (Elt Ideal)
      (layerCR (V m c (Pipeline.arrRef spec0 0)) (V m c (Pipeline.arrRef spec0 1)) (V m c (Pipeline.arrRef spec0 2))
        (V m c (Pipeline.arrRef spec0 3))) :=
  (flushed4 m c t).trans
    (block_eq (V m c (Pipeline.arrRef spec0 0)) (V m c (Pipeline.arrRef spec0 1)) (V m c (Pipeline.arrRef spec0 2))
      (V m c (Pipeline.arrRef spec0 3)) t)

/-- An index of the array is in point `t`'s block iff each coordinate is in the block's range on its axis. -/
theorem mem_blk (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v18).slice (win0_4.rect t)).set ↔ _
  rw [View.set_slice_whole, Rect.mem_set_unit]
  exact Iff.rfl

/-- Every index of the result array lies in some point's block: row `r` in block `r / 2000`. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, -, -, -, -, e0, e1⟩ := idx_facts t
  refine ⟨t, flush0_4 t, ?_⟩
  rw [mem_blk]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- THE ARRAY after the run: the layer of the four arrays as the region finds them. -/
theorem final (c : Dev nD) :
    (dats m 0 c).arrAt 4 cfg0.N
      = layerCR (V m c (Pipeline.arrRef spec0 0)) (V m c (Pipeline.arrRef spec0 1)) (V m c (Pipeline.arrRef spec0 2))
          (V m c (Pipeline.arrRef spec0 3)) :=
  (dats m 0 c).arrAt_eq_of_cover 4 _ (fun t _ => flushed_eq m c t) cover

end Cert.KernelIdeal.ArrayValue

end
-- ==== Proof.HostValue.lean ====
/-
  What the kernel's region finds in the four arrays it reads. Before the region the kernel's program runs, on the
  host, the same gather and the same two segment sums as the reference, then recasts the weight sums as a column and
  the bias as a row. So, in terms of the launch contents of the arguments: the first window's array holds the
  reference's weighted feature sums, the second the reference's weight sums as a [50000, 1] column, the third the
  matrix untouched, and the fourth the bias as a [1, 128] row. The segment sums are never opened: both programs
  spell them with the same operations on the same operands, and that is all that is used.
-/
import proofs.«107392_j22204980920810_1_alg».proof.Proof.Gen.KernelIdeal.Frame
import proofs.«107392_j22204980920810_1_alg».proof.Proof.Gen.ReferenceIdeal.Read
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The weighted feature sums the region finds are the reference's, of the same launch arguments. -/
theorem V_num (c : Dev nD) :
    (V m c main_v12 : S50000x128.Idx → EReal)
      = Cert.ReferenceIdeal.Read.val_main_v12 (F := Ideal) (m ((c : Thread nD τ).loc main_arg0)) (m ((c : Thread nD τ).loc main_arg1))
          (m ((c : Thread nD τ).loc main_arg2)) (m ((c : Thread nD τ).loc main_arg3)) := by
  dsimp only [V, hostOps0]; after_results; rfl

/-- The weight sums the region finds are the reference's, recast as a column. -/
theorem V_den (c : Dev nD) :
    (V m c main_v16 : S50000x1.Idx → EReal)
      = shapeCast S50000x1 (Cert.ReferenceIdeal.Read.val_main_v15 (F := Ideal) (m ((c : Thread nD τ).loc main_arg1))
          (m ((c : Thread nD τ).loc main_arg3))) shapeCasts_S50000_S50000x1 := by
  dsimp only [V, hostOps0]; after_results; rfl

/-- The bias the region finds is the argument's, recast as a row. -/
theorem V_bias (c : Dev nD) :
    (V m c main_v17 : S1x128.Idx → EReal)
      = shapeCast S1x128 (m ((c : Thread nD τ).loc main_arg5)) shapeCasts_S128_S1x128 := by
  dsimp only [V, hostOps0]; after_results; rfl

end Cert.KernelIdeal.HostValue

end
-- ==== Proof.KernelValue.lean ====
/-
  The kernel's run, with its result named. After the run the result array is the layer of DenseSpec evaluated on
  the four arrays the region found (KernelBlocks); those arrays are the reference's weighted feature sums, the
  reference's weight sums recast as a column, the matrix, and the bias recast as a row (HostValue); a column and a row
  made by casts feed the layer what the plain vectors do (DenseSpec). So the result is the layer of the reference's
  two segment sums, the matrix and the bias — all as functions of the launch contents of the six arguments.
-/
import proofs.«107392_j22204980920810_1_alg».proof.Proof.KernelBlocks
import proofs.«107392_j22204980920810_1_alg».proof.Proof.HostValue

noncomputable section

namespace Cert.KernelIdeal.ArrayValue

open Cert.KernelIdeal Cert.KernelIdeal.Gen Cert.KernelIdeal.Value
open Idealize.ShloMosaic Idealize.ShloMosaic.TcCoe Idealize.SL.Sem Cert.DenseSpec

variable (m : (ℓ : Loc nD τ sig) → Buf (Elt Ideal) ℓ) (ρ : Dev nD → PrngReg)

/-- The layer of the four arrays the region finds is the layer of the reference's segment sums, the matrix and the
    bias. -/
theorem layer_of_entry (c : Dev nD) :
    layerCR (V m c (Pipeline.arrRef spec0 0)) (V m c (Pipeline.arrRef spec0 1)) (V m c (Pipeline.arrRef spec0 2))
        (V m c (Pipeline.arrRef spec0 3))
      = layer (Cert.ReferenceIdeal.Read.val_main_v12 (F := Ideal) (m ((c : Thread nD τ).loc main_arg0)) (m ((c : Thread nD τ).loc main_arg1))
            (m ((c : Thread nD τ).loc main_arg2)) (m ((c : Thread nD τ).loc main_arg3)))
          (Cert.ReferenceIdeal.Read.val_main_v15 (F := Ideal) (m ((c : Thread nD τ).loc main_arg1)) (m ((c : Thread nD τ).loc main_arg3)))
          (m ((c : Thread nD τ).loc main_arg4)) (m ((c : Thread nD τ).loc main_arg5)) := by
  show layerCR (V m c main_v12) (V m c main_v16) (V m c main_arg4) (V m c main_v17) = _
  rw [HostValue.V_num m c, HostValue.V_den m c, HostValue.V_bias m c, V_main_arg4 m c]
  exact layerCR_of_casts _ _ _ _ _ _

/-- Every weakly fair execution of the kernel's program terminates with the result array at that layer and the
    arguments unchanged. -/
theorem run : θ_run defs (onTc (τ := τ) (main (F := Ideal))) ⟨m, fun _ => 0, ρ⟩ fun r => ∀ c : Dev nD,
      r.2.mem ((c : Thread nD τ).loc main_v18)
        = layer (Cert.ReferenceIdeal.Read.val_main_v12 (F := Ideal) (m ((c : Thread nD τ).loc main_arg0)) (m ((c : Thread nD τ).loc main_arg1))
              (m ((c : Thread nD τ).loc main_arg2)) (m ((c : Thread nD τ).loc main_arg3)))
            (Cert.ReferenceIdeal.Read.val_main_v15 (F := Ideal) (m ((c : Thread nD τ).loc main_arg1)) (m ((c : Thread nD τ).loc main_arg3)))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (layer_of_entry m c)), (h c).2⟩)
    (run_blocks (F := Ideal) m ρ)

end Cert.KernelIdeal.ArrayValue

end
-- ==== Proof.lean ====
/-
  A graph-convolution layer: for 50000 nodes with 128 features and 1.6 million weighted edges, each node's features are
  the weighted mean of its neighbours' (the weighted sums over a node's edges divided by the sum of their weights, that
  sum floored at 1e-12), followed by a dense 128 × 128 projection, a bias and a rectifier.

  Both programs form the weighted feature sums and the weight sums on the host with the same gather and the same two
  segment sums. The reference then divides, multiplies by the matrix as ONE [50000, 128] × [128, 128] product, adds the
  bias and rectifies. The kernel does the same in 25 row blocks of 2000 nodes, rounding the quotient and the matrix to
  half precision before a product accumulated in single precision. Over the extended reals a rounding is the identity
  and a product into a zero accumulator is the plain sum over the 128 features, and an entry of the result depends
  only on its own row of the sums: so every entry of both results is

      max ( (Σ_k (num[r, k] / max(den[r], ε)) · W[k, u]) + b[u], 0 )

  of the same `num` and `den`. No algebraic law beyond that is needed, and the finiteness of the inputs is never used.

  The kernel's and the reference's runs are the generated ones; written by hand are the layer as one function
  (DenseSpec), that the reference's stages after the segment sums are that function (RefLayer), the kernel body's value
  at an entry (KernelPayload), the passage from the 25 blocks to the whole array (KernelBlocks), what the region finds in
  its input arrays (HostValue), and the kernel's run with its result named (KernelValue).
-/
import proofs.«107392_j22204980920810_1_alg».proof.Defs
import proofs.«107392_j22204980920810_1_alg».proof.Proof.Gen.Kernel
import proofs.«107392_j22204980920810_1_alg».proof.Proof.Gen.Kernel.Skeleton
import proofs.«107392_j22204980920810_1_alg».proof.Proof.Gen.Kernel.Launch
import proofs.«107392_j22204980920810_1_alg».proof.Proof.Gen.Kernel.Points
import proofs.«107392_j22204980920810_1_alg».proof.Proof.Gen.Kernel.Frame
import proofs.«107392_j22204980920810_1_alg».proof.Proof.Gen.KernelIdeal
import proofs.«107392_j22204980920810_1_alg».proof.Proof.Gen.KernelIdeal.Skeleton
import proofs.«107392_j22204980920810_1_alg».proof.Proof.Gen.KernelIdeal.Launch
import proofs.«107392_j22204980920810_1_alg».proof.Proof.Gen.KernelIdeal.Points
import proofs.«107392_j22204980920810_1_alg».proof.Proof.Gen.KernelIdeal.Frame
import proofs.«107392_j22204980920810_1_alg».proof.Proof.Gen.ReferenceIdeal
import proofs.«107392_j22204980920810_1_alg».proof.Proof.Gen.Pre_finite_inputs
import proofs.«107392_j22204980920810_1_alg».proof.Proof.Gen.KernelIdeal.Value
import proofs.«107392_j22204980920810_1_alg».proof.Proof.Gen.ReferenceIdeal.Run
import proofs.«107392_j22204980920810_1_alg».proof.Proof.Gen.ReferenceIdeal.Read
import proofs.«107392_j22204980920810_1_alg».proof.Proof.RefLayer
import proofs.«107392_j22204980920810_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the six arguments, the kernel's result array and the reference's are the same layer of
    the same segment sums, the same matrix and the same bias. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v25_eq, Cert.ReferenceIdeal.RefValue.result_eq_layer, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
